-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S65536x1 : Shape := ⟨2, ![65536, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S65536x1 .f32) (main_arg3 : FVec F S65536x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x1 .f32 := Host.absf main_arg2
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S65536x1 .f32 := Host.absf main_arg3
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S65536x1 : Shape := ⟨2, ![65536, 1]⟩
abbrev S4096 : Shape := ⟨1, ![4096]⟩
abbrev S8192x4096 : Shape := ⟨2, ![8192, 4096]⟩
abbrev S4096x16 : Shape := ⟨2, ![4096, 16]⟩
abbrev S1x4096 : Shape := ⟨2, ![1, 4096]⟩
abbrev S128x4096 : Shape := ⟨2, ![128, 4096]⟩
abbrev S2048x4096 : Shape := ⟨2, ![2048, 4096]⟩
abbrev S2048x16 : Shape := ⟨2, ![2048, 16]⟩
abbrev S1x2048 : Shape := ⟨2, ![1, 2048]⟩
abbrev S128x2048 : Shape := ⟨2, ![128, 2048]⟩
abbrev S2048x256 : Shape := ⟨2, ![2048, 256]⟩
abbrev S2048x1 : Shape := ⟨2, ![2048, 1]⟩
abbrev S128x256 : Shape := ⟨2, ![128, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S65536x1, .f32⟩
  | .hbm, ⟨3, _⟩ => ⟨S65536x1, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x16, .f32⟩
  | .hbm, ⟨8, _⟩ => ⟨S4096x16, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S128x4096, .bf16⟩
  | .local _ .vmem, ⟨1, _⟩ => ⟨S128x4096, .bf16⟩
  | .local _ .vmem, ⟨2, _⟩ => ⟨S2048x4096, .i32⟩
  | .local _ .vmem, ⟨3, _⟩ => ⟨S2048x16, .f32⟩
  | .local _ .vmem, ⟨4, _⟩ => ⟨S2048x16, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S65536x1_S4096x16 : S65536x1.ShapeCasts S4096x16
  shapeCasts_S4096_S1x4096 : S4096.ShapeCasts S1x4096
  inb_S2048x4096_S2048x256_0_0 : ∀ a, (![0, 0] : Fin 2 → Nat) a + S2048x256.size a ≤ S2048x4096.size a
  h_S2048x256 : 0 < S2048x256.numel
  inb_S2048x16_S2048x1_0_0 : ∀ a, (![0, 0] : Fin 2 → Nat) a + S2048x1.size a ≤ S2048x16.size a
  h_S2048x1 : 0 < S2048x1.numel
  shapeCasts_S2048x1_S2048x1 : S2048x1.ShapeCasts S2048x1
  broadcasts_S2048x1_S2048x256 : S2048x1.Broadcasts S2048x256
  inb_S128x4096_S128x256_0_0 : ∀ a, (![0, 0] : Fin 2 → Nat) a + S128x256.size a ≤ S128x4096.size a
  h_S128x256 : 0 < S128x256.numel
  shapeCasts_S128x256_S128x256 : S128x256.ShapeCasts S128x256
  inb_S2048x4096_S2048x256_0_256 : ∀ a, (![0, 256] : Fin 2 → Nat) a + S2048x256.size a ≤ S2048x4096.size a
  inb_S2048x16_S2048x1_0_1 : ∀ a, (![0, 1] : Fin 2 → Nat) a + S2048x1.size a ≤ S2048x16.size a
  inb_S128x4096_S128x256_0_256 : ∀ a, (![0, 256] : Fin 2 → Nat) a + S128x256.size a ≤ S128x4096.size a
  inb_S2048x4096_S2048x256_0_512 : ∀ a, (![0, 512] : Fin 2 → Nat) a + S2048x256.size a ≤ S2048x4096.size a
  inb_S2048x16_S2048x1_0_2 : ∀ a, (![0, 2] : Fin 2 → Nat) a + S2048x1.size a ≤ S2048x16.size a
  inb_S128x4096_S128x256_0_512 : ∀ a, (![0, 512] : Fin 2 → Nat) a + S128x256.size a ≤ S128x4096.size a
  inb_S2048x4096_S2048x256_0_768 : ∀ a, (![0, 768] : Fin 2 → Nat) a + S2048x256.size a ≤ S2048x4096.size a
  inb_S2048x16_S2048x1_0_3 : ∀ a, (![0, 3] : Fin 2 → Nat) a + S2048x1.size a ≤ S2048x16.size a
  inb_S128x4096_S128x256_0_768 : ∀ a, (![0, 768] : Fin 2 → Nat) a + S128x256.size a ≤ S128x4096.size a
  inb_S2048x4096_S2048x256_0_1024 : ∀ a, (![0, 1024] : Fin 2 → Nat) a + S2048x256.size a ≤ S2048x4096.size a
  inb_S2048x16_S2048x1_0_4 : ∀ a, (![0, 4] : Fin 2 → Nat) a + S2048x1.size a ≤ S2048x16.size a
  inb_S128x4096_S128x256_0_1024 : ∀ a, (![0, 1024] : Fin 2 → Nat) a + S128x256.size a ≤ S128x4096.size a
  inb_S2048x4096_S2048x256_0_1280 : ∀ a, (![0, 1280] : Fin 2 → Nat) a + S2048x256.size a ≤ S2048x4096.size a
  inb_S2048x16_S2048x1_0_5 : ∀ a, (![0, 5] : Fin 2 → Nat) a + S2048x1.size a ≤ S2048x16.size a
  inb_S128x4096_S128x256_0_1280 : ∀ a, (![0, 1280] : Fin 2 → Nat) a + S128x256.size a ≤ S128x4096.size a
  inb_S2048x4096_S2048x256_0_1536 : ∀ a, (![0, 1536] : Fin 2 → Nat) a + S2048x256.size a ≤ S2048x4096.size a
  inb_S2048x16_S2048x1_0_6 : ∀ a, (![0, 6] : Fin 2 → Nat) a + S2048x1.size a ≤ S2048x16.size a
  inb_S128x4096_S128x256_0_1536 : ∀ a, (![0, 1536] : Fin 2 → Nat) a + S128x256.size a ≤ S128x4096.size a
  inb_S2048x4096_S2048x256_0_1792 : ∀ a, (![0, 1792] : Fin 2 → Nat) a + S2048x256.size a ≤ S2048x4096.size a
  inb_S2048x16_S2048x1_0_7 : ∀ a, (![0, 7] : Fin 2 → Nat) a + S2048x1.size a ≤ S2048x16.size a
  inb_S128x4096_S128x256_0_1792 : ∀ a, (![0, 1792] : Fin 2 → Nat) a + S128x256.size a ≤ S128x4096.size a
  inb_S2048x4096_S2048x256_0_2048 : ∀ a, (![0, 2048] : Fin 2 → Nat) a + S2048x256.size a ≤ S2048x4096.size a
  inb_S2048x16_S2048x1_0_8 : ∀ a, (![0, 8] : Fin 2 → Nat) a + S2048x1.size a ≤ S2048x16.size a
  inb_S128x4096_S128x256_0_2048 : ∀ a, (![0, 2048] : Fin 2 → Nat) a + S128x256.size a ≤ S128x4096.size a
  inb_S2048x4096_S2048x256_0_2304 : ∀ a, (![0, 2304] : Fin 2 → Nat) a + S2048x256.size a ≤ S2048x4096.size a
  inb_S2048x16_S2048x1_0_9 : ∀ a, (![0, 9] : Fin 2 → Nat) a + S2048x1.size a ≤ S2048x16.size a
  inb_S128x4096_S128x256_0_2304 : ∀ a, (![0, 2304] : Fin 2 → Nat) a + S128x256.size a ≤ S128x4096.size a
  inb_S2048x4096_S2048x256_0_2560 : ∀ a, (![0, 2560] : Fin 2 → Nat) a + S2048x256.size a ≤ S2048x4096.size a
  inb_S2048x16_S2048x1_0_10 : ∀ a, (![0, 10] : Fin 2 → Nat) a + S2048x1.size a ≤ S2048x16.size a
  inb_S128x4096_S128x256_0_2560 : ∀ a, (![0, 2560] : Fin 2 → Nat) a + S128x256.size a ≤ S128x4096.size a
  inb_S2048x4096_S2048x256_0_2816 : ∀ a, (![0, 2816] : Fin 2 → Nat) a + S2048x256.size a ≤ S2048x4096.size a
  inb_S2048x16_S2048x1_0_11 : ∀ a, (![0, 11] : Fin 2 → Nat) a + S2048x1.size a ≤ S2048x16.size a
  inb_S128x4096_S128x256_0_2816 : ∀ a, (![0, 2816] : Fin 2 → Nat) a + S128x256.size a ≤ S128x4096.size a
  inb_S2048x4096_S2048x256_0_3072 : ∀ a, (![0, 3072] : Fin 2 → Nat) a + S2048x256.size a ≤ S2048x4096.size a
  inb_S2048x16_S2048x1_0_12 : ∀ a, (![0, 12] : Fin 2 → Nat) a + S2048x1.size a ≤ S2048x16.size a
  inb_S128x4096_S128x256_0_3072 : ∀ a, (![0, 3072] : Fin 2 → Nat) a + S128x256.size a ≤ S128x4096.size a
  inb_S2048x4096_S2048x256_0_3328 : ∀ a, (![0, 3328] : Fin 2 → Nat) a + S2048x256.size a ≤ S2048x4096.size a
  inb_S2048x16_S2048x1_0_13 : ∀ a, (![0, 13] : Fin 2 → Nat) a + S2048x1.size a ≤ S2048x16.size a
  inb_S128x4096_S128x256_0_3328 : ∀ a, (![0, 3328] : Fin 2 → Nat) a + S128x256.size a ≤ S128x4096.size a
  inb_S2048x4096_S2048x256_0_3584 : ∀ a, (![0, 3584] : Fin 2 → Nat) a + S2048x256.size a ≤ S2048x4096.size a
  inb_S2048x16_S2048x1_0_14 : ∀ a, (![0, 14] : Fin 2 → Nat) a + S2048x1.size a ≤ S2048x16.size a
  inb_S128x4096_S128x256_0_3584 : ∀ a, (![0, 3584] : Fin 2 → Nat) a + S128x256.size a ≤ S128x4096.size a
  inb_S2048x4096_S2048x256_0_3840 : ∀ a, (![0, 3840] : Fin 2 → Nat) a + S2048x256.size a ≤ S2048x4096.size a
  inb_S2048x16_S2048x1_0_15 : ∀ a, (![0, 15] : Fin 2 → Nat) a + S2048x1.size a ≤ S2048x16.size a
  inb_S128x4096_S128x256_0_3840 : ∀ a, (![0, 3840] : Fin 2 → Nat) a + S128x256.size a ≤ S128x4096.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  shapeCasts_S8192x4096_S4x2048x4096 : S8192x4096.ShapeCasts S4x2048x4096
  dot_S128x256_S2048x256_S128x2048_1_1_0_0_n_n_wf : DotDims.WF S128x256 S2048x256 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .bf16 = 32 ∨ (Rect.block (s := S8192x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .i32 = 32 ∨ (Rect.block (s := S4096x4096) S2048x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S4096x16.size a
  hwx0_2 : ∀ i : grid0.Coords, EltTy.bits .f32 = 32 ∨ (Rect.block (s := S4096x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S4096x16.size a
  hwx0_3 : ∀ i : grid0.Coords, EltTy.bits .f32 = 32 ∨ (Rect.block (s := S4096x16) S2048x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x4096.size a
  hwx0_5 : ∀ i : grid0.Coords, EltTy.bits .f32 = 32 ∨ (Rect.block (s := S8192x4096) S128x2048.size (cc0_transform_5 i) (hinb0_5 i)).WholeWords (EltTy.packing .f32)

variable [Facts₀]

def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf

abbrev win0_0 : Pipeline.Window sig grid0 :=
  Pipeline.Window.ofSpec (Memref.whole main_v1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S65536x1 : Shape := ⟨2, ![65536, 1]⟩
abbrev S4096 : Shape := ⟨1, ![4096]⟩
abbrev S65536x256 : Shape := ⟨2, ![65536, 256]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S65536x1, .f32⟩
  | .hbm, ⟨3, _⟩ => ⟨S65536x1, .f32⟩
  | .hbm, ⟨4, _⟩ => ⟨S4096, .f32⟩
  | .hbm, ⟨5, _⟩ => ⟨S4096x4096, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S4096x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S4096x4096_S65536x256 : S4096x4096.ShapeCasts S65536x256
  bcast_S65536x1_S65536x256_0_1 : S65536x1.BroadcastsInDim S65536x256 (![0, 1] : Fin 2 → Fin S65536x256.rank)
  shapeCasts_S65536x256_S4096x4096 : S65536x256.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.QuantLinear.lean ====
/-
  A linear layer over group-wise quantized weights, on the extended reals.

  The weight matrix is stored as integer codes `Q (o, k)`, 4096 columns to a row, with one zero point `Z (o, g)` and one
  scale `S (o, g)` for each group `g` of 256 consecutive columns of row `o` (16 groups to a row). The weight a code
  stands for is `(code - zero point) * scale`, and the layer sends a row `r` of inputs to

      out (r, o) = (sum over k < 4096 of X (r, k) * ((Q (o, k) - Z (o, k / 256)) * S (o, k / 256))) + B (0, o).

  A program that walks the columns one group at a time computes the same sum as sixteen partial sums of 256 products
  each, added one after the other onto zero. On the extended reals addition is still associative and commutative, with
  zero its neutral element, so the two arrangements agree whatever the entries are: nothing is assumed finite.
-/
import Idealize.ShloMosaic.PureOps.Ideal
import Idealize.ShloMosaic.Lib.ValueIdx
import proofs.«124148_j47227460386887_1_alg».proof.Proof.LibBlockSum

noncomputable section

namespace QuantLinear

open Idealize.ShloMosaic Idealize.ShloMosaic.ValueIdx

/-- The weight an integer code stands for: (code - zero point) * scale. The code is read as a signed integer. -/
def weight (q : BitVec 32) (z s : EReal) : EReal := (((q.toInt : ℝ) : EReal) - z) * s

/-- The group of a column: 256 consecutive columns share one zero point and one scale. -/
def grp (k : Fin 4096) : Fin 16 := ⟨k.val / 256, by have := k.isLt; omega⟩

variable {M N : ℕ}

/-- One product of the layer: the input at `(r, k)` times the weight at `(o, k)`. -/
def summand (X : (⟨2, ![M, 4096]⟩ : Shape).Idx → EReal) (Q : (⟨2, ![N, 4096]⟩ : Shape).Idx → BitVec 32)
    (S Z : (⟨2, ![N, 16]⟩ : Shape).Idx → EReal) (r : Fin M) (o : Fin N) (k : Fin 4096) : EReal :=
  X (ix2 r k) * weight (Q (ix2 o k)) (Z (ix2 o (grp k))) (S (ix2 o (grp k)))

/-- The layer: `M` rows of inputs against `N` rows of quantized weights, plus a row of biases. Entry `(r, o)` depends
    on row `r` of the inputs and on row `o` of the codes, zero points and scales only. -/
def layer (X : (⟨2, ![M, 4096]⟩ : Shape).Idx → EReal) (Q : (⟨2, ![N, 4096]⟩ : Shape).Idx → BitVec 32)
    (S Z : (⟨2, ![N, 16]⟩ : Shape).Idx → EReal) (B : (⟨2, ![1, N]⟩ : Shape).Idx → EReal) :
    (⟨2, ![M, N]⟩ : Shape).Idx → EReal :=
  fun j => (∑ k : Fin 4096, summand X Q S Z (j 0) (j 1) k) + B (ix2 (0 : Fin 1) (j 1))

theorem layer_apply (X : (⟨2, ![M, 4096]⟩ : Shape).Idx → EReal) (Q : (⟨2, ![N, 4096]⟩ : Shape).Idx → BitVec 32)
    (S Z : (⟨2, ![N, 16]⟩ : Shape).Idx → EReal) (B : (⟨2, ![1, N]⟩ : Shape).Idx → EReal) (r : Fin M) (o : Fin N) :
    layer X Q S Z B (ix2 r o) = (∑ k : Fin 4096, summand X Q S Z r o k) + B (ix2 (0 : Fin 1) o) := rfl

/-- ROW LOCALITY: entry `(p, q)` of the layer of some arrays is entry `(r, o)` of the layer of other arrays as soon as
    row `p` of the first inputs is row `r` of the second, row `q` of the first codes, scales and zero points is row `o`
    of the second, and the two biases agree there. A block of rows of the inputs against a block of rows of the
    weights gives the block of the whole layer at the blocks' position. -/
theorem layer_rows {M' N' : ℕ}
    (X : (⟨2, ![M, 4096]⟩ : Shape).Idx → EReal) (Q : (⟨2, ![N, 4096]⟩ : Shape).Idx → BitVec 32)
    (S Z : (⟨2, ![N, 16]⟩ : Shape).Idx → EReal) (B : (⟨2, ![1, N]⟩ : Shape).Idx → EReal)
    (X' : (⟨2, ![M', 4096]⟩ : Shape).Idx → EReal) (Q' : (⟨2, ![N', 4096]⟩ : Shape).Idx → BitVec 32)
    (S' Z' : (⟨2, ![N', 16]⟩ : Shape).Idx → EReal) (B' : (⟨2, ![1, N']⟩ : Shape).Idx → EReal)
    (p : Fin M') (q : Fin N') (r : Fin M) (o : Fin N)
    (hX : ∀ k : Fin 4096, X' (ix2 p k) = X (ix2 r k)) (hQ : ∀ k : Fin 4096, Q' (ix2 q k) = Q (ix2 o k))
    (hS : ∀ g : Fin 16, S' (ix2 q g) = S (ix2 o g)) (hZ : ∀ g : Fin 16, Z' (ix2 q g) = Z (ix2 o g))
    (hB : B' (ix2 (0 : Fin 1) q) = B (ix2 (0 : Fin 1) o)) :
    layer X' Q' S' Z' B' (ix2 p q) = layer X Q S Z B (ix2 r o) := by
  rw [layer_apply, layer_apply, hB]
  refine congrArg (· + B (ix2 (0 : Fin 1) o)) (Finset.sum_congr rfl fun k _ => ?_)
  unfold summand
  rw [hX, hQ, hS, hZ]

/-! ## Sixteen groups of 256 columns -/

/-- A function of the columns, continued by zero past the last column (so that it can be read at `256 * g + k`). -/
def ext (f : Fin 4096 → EReal) (i : ℕ) : EReal := if h : i < 4096 then f ⟨i, h⟩ else 0

theorem ext_of_lt (f : Fin 4096 → EReal) {i : ℕ} (h : i < 4096) : ext f i = f ⟨i, h⟩ := dif_pos h

/-- The sum over all 4096 columns is the sum, over the 16 groups, of each group's 256 terms. -/
theorem sum_groups (f : Fin 4096 → EReal) :
    ∑ k : Fin 4096, f k = ∑ g ∈ Finset.range 16, ∑ k : Fin 256, ext f (256 * g + k.val) := by
  rw [← AnchorGcn.sum_fin_blocks (ext f) 16 256]
  show ∑ k : Fin 4096, f k = ∑ i : Fin 4096, ext f i.val
  exact Finset.sum_congr rfl fun k _ => (ext_of_lt f k.isLt).symm

/-- Sixteen terms added one after the other onto zero are their sum. -/
theorem sum_sixteen (T : ℕ → EReal) :
    0 + T 0 + T 1 + T 2 + T 3 + T 4 + T 5 + T 6 + T 7 + T 8 + T 9 + T 10 + T 11 + T 12 + T 13 + T 14 + T 15
      = ∑ g ∈ Finset.range 16, T g := by
  simp only [Finset.sum_range_succ, Finset.sum_range_zero]

/-- A product of the layer read at column `256 * g + k` of group `g`: the group's zero point and scale. -/
theorem ext_summand (X : (⟨2, ![M, 4096]⟩ : Shape).Idx → EReal) (Q : (⟨2, ![N, 4096]⟩ : Shape).Idx → BitVec 32)
    (S Z : (⟨2, ![N, 16]⟩ : Shape).Idx → EReal) (r : Fin M) (o : Fin N) (g : ℕ) (hg : g < 16) (k : Fin 256)
    (h : 256 * g + k.val < 4096) :
    ext (summand X Q S Z r o) (256 * g + k.val)
      = X (ix2 r ⟨256 * g + k.val, h⟩)
          * weight (Q (ix2 o ⟨256 * g + k.val, h⟩)) (Z (ix2 o (⟨g, hg⟩ : Fin 16))) (S (ix2 o (⟨g, hg⟩ : Fin 16))) := by
  rw [ext_of_lt _ h]
  have e : grp ⟨256 * g + k.val, h⟩ = ⟨g, hg⟩ :=
    Fin.ext (by show (256 * g + k.val) / 256 = g; have := k.isLt; omega)
  unfold summand
  rw [e]

end QuantLinear

end
-- ==== Proof.GroupTerm.lean ====
/-
  One group's contribution to a block of the quantized layer.

  The kernel body handles a block of 128 input rows against a block of 2048 weight rows, one group of 256 columns at
  a time. For a group it is handed the 128 x 256 band `a` of the inputs, the 2048 x 256 band `w` of integer codes and the
  group's column `z` of zero points and column `s` of scales (one entry per weight row). It turns the codes into
  numbers, subtracts the zero point of the row, multiplies by the scale of the row, and multiplies the input band by
  the transpose of the result. On the extended reals a change of float format does nothing and the product into a
  zero accumulator is the plain sum, so entry `(p, q)` of the contribution is

      sum over k < 256 of a (p, k) * ((w (q, k) - z (q, 0)) * s (q, 0)).
-/
import proofs.«124148_j47227460386887_1_alg».proof.KernelIdeal
import proofs.«124148_j47227460386887_1_alg».proof.Proof.Gen.KernelIdeal
import proofs.«124148_j47227460386887_1_alg».proof.Proof.LibDotRows
import proofs.«124148_j47227460386887_1_alg».proof.Proof.LibColumnBroadcast
import proofs.«124148_j47227460386887_1_alg».proof.Proof.QuantLinear
import Idealize.ShloMosaic.Lib.Pipeline.Value
import Idealize.ShloMosaic.Lib.ValueIdx

noncomputable section

namespace Cert.KernelIdeal.Group

open Idealize.ShloMosaic Idealize.ShloMosaic.ValueIdx Cert.KernelIdeal Cert.KernelIdeal.Facts₀

variable {F : FTy → Type} [FloatOps F]

/-- The contribution of one group of 256 columns, as the body computes it: the operations of one pass of the body's
    loop over the groups, from the four values the pass loads to the product it adds onto the accumulator. -/
def term (a : Vec F S128x256 .bf16) (w : Vec F S2048x256 .i32) (z s : Vec F S2048x1 .f32) : FVec F S128x2048 .f32 :=
  matmul dot_S128x256_S2048x256_S128x2048_1_1_0_0_n_n none (shapeCast S128x256 a shapeCasts_S128x256_S128x256)
    (truncf .bf16
      (mulf (subf (sitofp .f32 w) (broadcastTo S2048x256 (shapeCast S2048x1 z shapeCasts_S2048x1_S2048x1) broadcasts_S2048x1_S2048x256))
        (broadcastTo S2048x256 (shapeCast S2048x1 s shapeCasts_S2048x1_S2048x1) broadcasts_S2048x1_S2048x256))
      bitsLt_bf16_f32)
    (constant S128x2048 .f32 0x00000000#32)

/-- On the extended reals, entry `(p, q)` of a group's contribution is the sum over the group's 256 columns of the
    input at `(p, k)` times the weight that the code at `(q, k)` stands for under row `q`'s zero point and scale. -/
theorem term_apply (a : Vec Ideal S128x256 .bf16) (w : Vec Ideal S2048x256 .i32) (z s : Vec Ideal S2048x1 .f32)
    (p : Fin 128) (q : Fin 2048) :
    term (F := Ideal) a w z s (ix2 p q)
      = ∑ k : Fin 256, a (ix2 p k) * QuantLinear.weight (w (ix2 q k)) (z (ix2 q (0 : Fin 1))) (s (ix2 q (0 : Fin 1))) := by
  unfold term
  refine (DotRows.matmul_zero_apply 128 256 2048 none _ _ (ix2 p q)).trans ?_
  refine Finset.sum_congr rfl fun k _ => ?_
  rw [shapeCast_self, truncf_apply, mulf_apply, subf_apply, sitofp_apply, ColumnBroadcast.apply, ColumnBroadcast.apply,
    shapeCast_self, shapeCast_self]
  rfl

end Cert.KernelIdeal.Group

end
-- ==== Proof.LibColumnBand.lean ====
/-
  A band of columns of a matrix, read at an entry.

  From an `[a, b]` array take every row and the `w` consecutive columns that start at column `off` (a unit-stride
  rectangle with offsets `(0, off)` and extents `(a, w)`). What a load through that rectangle holds at `(p, k)` is the
  array's entry `(p, off + k)`: the row is kept and the column is shifted by the band's first column. Generic in the
  extents, the offset and the element type.
-/
import Idealize.ShloMosaic.Lib.Pipeline.Value
import Idealize.ShloMosaic.Lib.ValueIdx

noncomputable section

namespace ColumnBand

open Idealize.ShloMosaic Idealize.ShloMosaic.ValueIdx

/-- A load of all rows and columns `off, …, off + w - 1` of an `[a, b]` array reads, at `(p, k)`, the array at
    `(p, off + k)`. -/
theorem ld_apply {Val : EltTy → Type} {e : EltTy} {a b w : ℕ} (X : (⟨2, ![a, b]⟩ : Shape).Idx → Val e) (off : ℕ)
    (inb : ∀ ax, (![0, off] : Fin 2 → ℕ) ax + (![a, w] : Fin 2 → ℕ) ax ≤ (⟨2, ![a, b]⟩ : Shape).size ax)
    (p : Fin a) (k : Fin w) (h : off + k.val < b) :
    View.ld X (Rect.unit (s := ⟨2, ![a, b]⟩) ![0, off] ![a, w] inb) (ix2 p k) = X (ix2 p ⟨off + k.val, h⟩) := by
  show X ((Rect.unit (s := ⟨2, ![a, b]⟩) ![0, off] ![a, w] inb).idx (ix2 p k)) = X (ix2 p ⟨off + k.val, h⟩)
  refine congrArg X (funext fun ax => Fin.ext ?_)
  match ax with
  | ⟨0, _⟩ => show 0 + 1 * p.val = p.val; omega
  | ⟨1, _⟩ => show off + 1 * k.val = off + k.val; omega

end ColumnBand

end
-- ==== Proof.BlockValue.lean ====
/-
  What one grid point of the kernel leaves in its output block.

  At a grid point the body is handed a block of 128 input rows (all 4096 columns), a block of 2048 rows of integer
  codes, the 2048 x 16 blocks of scales and zero points of those rows, and the 2048 biases of those rows, and it
  stores one 128 x 2048 block. The stored value is a zero block onto which the sixteen groups' contributions are
  added one after the other, plus the bias row. Each contribution reads columns 256 g, ..., 256 g + 255 of the inputs and
  of the codes, and column g of the scales and zero points. On the extended reals that is the quantized linear layer
  of the blocks: the sixteen partial sums are the one sum over all 4096 columns.
-/
import proofs.«124148_j47227460386887_1_alg».proof.Proof.Gen.KernelIdeal.Frame
import proofs.«124148_j47227460386887_1_alg».proof.Proof.GroupTerm
import proofs.«124148_j47227460386887_1_alg».proof.Proof.LibColumnBand
import proofs.«124148_j47227460386887_1_alg».proof.Proof.QuantLinear
import Idealize.ShloMosaic.Lib.ValueLayout
import Idealize.ShloMosaic.PureOps.Ideal.Laws

set_option maxRecDepth 16384

noncomputable section

namespace Cert.KernelIdeal.Block

open Idealize.ShloMosaic Idealize.ShloMosaic.ValueIdx Cert.KernelIdeal Cert.KernelIdeal.Gen

variable {F : FTy → Type} [FloatOps F]

theorem hz : (![0, 0] : Fin 2 → Nat) = fun _ => 0 := funext fun a => by fin_cases a <;> rfl

/-- The stored block is a zero block, plus the sixteen groups' contributions in order, plus the bias row: the body's
    operations regrouped by pass of its loop over the groups. -/
theorem out_eq (x0 : Vec F S128x4096 .bf16) (x1 : Vec F S2048x4096 .i32) (x2 x3 : Vec F S2048x16 .f32) (x4 : Vec F S1x2048 .f32) :
    out0_5 x0 x1 x2 x3 x4 =
      addf (addf (addf (addf (addf (addf (addf (addf (addf (addf (addf (addf (addf (addf (addf (addf (addf (broadcast S128x2048 (Scalar.ofBits (F := F) .f32 0x00000000#32))
        (Group.term (View.ld x0 r0_2) (View.ld x1 r0_0) (View.ld x3 r0_1) (View.ld x2 r0_1)))
        (Group.term (View.ld x0 r0_5) (View.ld x1 r0_3) (View.ld x3 r0_4) (View.ld x2 r0_4)))
        (Group.term (View.ld x0 r0_8) (View.ld x1 r0_6) (View.ld x3 r0_7) (View.ld x2 r0_7)))
        (Group.term (View.ld x0 r0_11) (View.ld x1 r0_9) (View.ld x3 r0_10) (View.ld x2 r0_10)))
        (Group.term (View.ld x0 r0_14) (View.ld x1 r0_12) (View.ld x3 r0_13) (View.ld x2 r0_13)))
        (Group.term (View.ld x0 r0_17) (View.ld x1 r0_15) (View.ld x3 r0_16) (View.ld x2 r0_16)))
        (Group.term (View.ld x0 r0_20) (View.ld x1 r0_18) (View.ld x3 r0_19) (View.ld x2 r0_19)))
        (Group.term (View.ld x0 r0_23) (View.ld x1 r0_21) (View.ld x3 r0_22) (View.ld x2 r0_22)))
        (Group.term (View.ld x0 r0_26) (View.ld x1 r0_24) (View.ld x3 r0_25) (View.ld x2 r0_25)))
        (Group.term (View.ld x0 r0_29) (View.ld x1 r0_27) (View.ld x3 r0_28) (View.ld x2 r0_28)))
        (Group.term (View.ld x0 r0_32) (View.ld x1 r0_30) (View.ld x3 r0_31) (View.ld x2 r0_31)))
        (Group.term (View.ld x0 r0_35) (View.ld x1 r0_33) (View.ld x3 r0_34) (View.ld x2 r0_34)))
        (Group.term (View.ld x0 r0_38) (View.ld x1 r0_36) (View.ld x3 r0_37) (View.ld x2 r0_37)))
        (Group.term (View.ld x0 r0_41) (View.ld x1 r0_39) (View.ld x3 r0_40) (View.ld x2 r0_40)))
        (Group.term (View.ld x0 r0_44) (View.ld x1 r0_42) (View.ld x3 r0_43) (View.ld x2 r0_43)))
        (Group.term (View.ld x0 r0_47) (View.ld x1 r0_45) (View.ld x3 r0_46) (View.ld x2 r0_46)))
      (broadcastTo S128x2048 (shapeCast S1x2048 (View.ld x4 r0_48) shapeCasts_S1x2048_S1x2048) broadcasts_S1x2048_S128x2048) := by
  unfold out0_5
  rw [View.canon_unit_zero hz]
  rfl

/-- Group `g`'s contribution at `(p, q)`, from the bands the body loads for it (columns from `256 g` of the inputs and
    the codes, column `g` of the zero points and scales): the group's 256 products of the layer. -/
theorem group_eq (x0 : Vec Ideal S128x4096 .bf16) (x1 : Vec Ideal S2048x4096 .i32) (x2 x3 : Vec Ideal S2048x16 .f32)
    (g : ℕ) (hg : g < 16)
    (inbA : ∀ ax, (![0, 256 * g] : Fin 2 → ℕ) ax + S128x256.size ax ≤ S128x4096.size ax)
    (inbW : ∀ ax, (![0, 256 * g] : Fin 2 → ℕ) ax + S2048x256.size ax ≤ S2048x4096.size ax)
    (inbZ : ∀ ax, (![0, g] : Fin 2 → ℕ) ax + S2048x1.size ax ≤ S2048x16.size ax)
    (p : Fin 128) (q : Fin 2048) :
    Group.term (F := Ideal) (View.ld x0 (Rect.unit (s := S128x4096) ![0, 256 * g] S128x256.size inbA))
        (View.ld x1 (Rect.unit (s := S2048x4096) ![0, 256 * g] S2048x256.size inbW))
        (View.ld x3 (Rect.unit (s := S2048x16) ![0, g] S2048x1.size inbZ))
        (View.ld x2 (Rect.unit (s := S2048x16) ![0, g] S2048x1.size inbZ)) (ix2 p q)
      = ∑ k : Fin 256, QuantLinear.ext (QuantLinear.summand x0 x1 x2 x3 p q) (256 * g + k.val) := by
  rw [Group.term_apply]
  refine Finset.sum_congr rfl fun k _ => ?_
  have h : 256 * g + k.val < 4096 := by have := k.isLt; omega
  have h0 : g + (0 : Fin 1).val < 16 := by show g + 0 < 16; omega
  have eA := ColumnBand.ld_apply x0 (256 * g) inbA p k h
  have eW := ColumnBand.ld_apply x1 (256 * g) inbW q k h
  have eZ := ColumnBand.ld_apply x3 g inbZ q (0 : Fin 1) h0
  have eS := ColumnBand.ld_apply x2 g inbZ q (0 : Fin 1) h0
  rw [QuantLinear.ext_summand x0 x1 x2 x3 p q g hg k h]
  exact congrArg₂ (· * ·) eA (congr (congrArg₂ QuantLinear.weight eW eZ) eS)

/-- ONE BLOCK: on the extended reals the stored block is the quantized linear layer of the five blocks the body is
    handed, entry by entry. -/
theorem out_apply (x0 : Vec Ideal S128x4096 .bf16) (x1 : Vec Ideal S2048x4096 .i32) (x2 x3 : Vec Ideal S2048x16 .f32)
    (x4 : Vec Ideal S1x2048 .f32) (p : Fin 128) (q : Fin 2048) :
    out0_5 (F := Ideal) x0 x1 x2 x3 x4 (ix2 p q) = QuantLinear.layer x0 x1 x2 x3 x4 (ix2 p q) := by
  have h0 : Group.term (View.ld x0 r0_2) (View.ld x1 r0_0) (View.ld x3 r0_1) (View.ld x2 r0_1) (ix2 p q)
      = ∑ k : Fin 256, QuantLinear.ext (QuantLinear.summand x0 x1 x2 x3 p q) (256 * 0 + k.val) :=
    group_eq x0 x1 x2 x3 0 (by decide) _ _ _ p q
  have h1 : Group.term (View.ld x0 r0_5) (View.ld x1 r0_3) (View.ld x3 r0_4) (View.ld x2 r0_4) (ix2 p q)
      = ∑ k : Fin 256, QuantLinear.ext (QuantLinear.summand x0 x1 x2 x3 p q) (256 * 1 + k.val) :=
    group_eq x0 x1 x2 x3 1 (by decide) _ _ _ p q
  have h2 : Group.term (View.ld x0 r0_8) (View.ld x1 r0_6) (View.ld x3 r0_7) (View.ld x2 r0_7) (ix2 p q)
      = ∑ k : Fin 256, QuantLinear.ext (QuantLinear.summand x0 x1 x2 x3 p q) (256 * 2 + k.val) :=
    group_eq x0 x1 x2 x3 2 (by decide) _ _ _ p q
  have h3 : Group.term (View.ld x0 r0_11) (View.ld x1 r0_9) (View.ld x3 r0_10) (View.ld x2 r0_10) (ix2 p q)
      = ∑ k : Fin 256, QuantLinear.ext (QuantLinear.summand x0 x1 x2 x3 p q) (256 * 3 + k.val) :=
    group_eq x0 x1 x2 x3 3 (by decide) _ _ _ p q
  have h4 : Group.term (View.ld x0 r0_14) (View.ld x1 r0_12) (View.ld x3 r0_13) (View.ld x2 r0_13) (ix2 p q)
      = ∑ k : Fin 256, QuantLinear.ext (QuantLinear.summand x0 x1 x2 x3 p q) (256 * 4 + k.val) :=
    group_eq x0 x1 x2 x3 4 (by decide) _ _ _ p q
  have h5 : Group.term (View.ld x0 r0_17) (View.ld x1 r0_15) (View.ld x3 r0_16) (View.ld x2 r0_16) (ix2 p q)
      = ∑ k : Fin 256, QuantLinear.ext (QuantLinear.summand x0 x1 x2 x3 p q) (256 * 5 + k.val) :=
    group_eq x0 x1 x2 x3 5 (by decide) _ _ _ p q
  have h6 : Group.term (View.ld x0 r0_20) (View.ld x1 r0_18) (View.ld x3 r0_19) (View.ld x2 r0_19) (ix2 p q)
      = ∑ k : Fin 256, QuantLinear.ext (QuantLinear.summand x0 x1 x2 x3 p q) (256 * 6 + k.val) :=
    group_eq x0 x1 x2 x3 6 (by decide) _ _ _ p q
  have h7 : Group.term (View.ld x0 r0_23) (View.ld x1 r0_21) (View.ld x3 r0_22) (View.ld x2 r0_22) (ix2 p q)
      = ∑ k : Fin 256, QuantLinear.ext (QuantLinear.summand x0 x1 x2 x3 p q) (256 * 7 + k.val) :=
    group_eq x0 x1 x2 x3 7 (by decide) _ _ _ p q
  have h8 : Group.term (View.ld x0 r0_26) (View.ld x1 r0_24) (View.ld x3 r0_25) (View.ld x2 r0_25) (ix2 p q)
      = ∑ k : Fin 256, QuantLinear.ext (QuantLinear.summand x0 x1 x2 x3 p q) (256 * 8 + k.val) :=
    group_eq x0 x1 x2 x3 8 (by decide) _ _ _ p q
  have h9 : Group.term (View.ld x0 r0_29) (View.ld x1 r0_27) (View.ld x3 r0_28) (View.ld x2 r0_28) (ix2 p q)
      = ∑ k : Fin 256, QuantLinear.ext (QuantLinear.summand x0 x1 x2 x3 p q) (256 * 9 + k.val) :=
    group_eq x0 x1 x2 x3 9 (by decide) _ _ _ p q
  have h10 : Group.term (View.ld x0 r0_32) (View.ld x1 r0_30) (View.ld x3 r0_31) (View.ld x2 r0_31) (ix2 p q)
      = ∑ k : Fin 256, QuantLinear.ext (QuantLinear.summand x0 x1 x2 x3 p q) (256 * 10 + k.val) :=
    group_eq x0 x1 x2 x3 10 (by decide) _ _ _ p q
  have h11 : Group.term (View.ld x0 r0_35) (View.ld x1 r0_33) (View.ld x3 r0_34) (View.ld x2 r0_34) (ix2 p q)
      = ∑ k : Fin 256, QuantLinear.ext (QuantLinear.summand x0 x1 x2 x3 p q) (256 * 11 + k.val) :=
    group_eq x0 x1 x2 x3 11 (by decide) _ _ _ p q
  have h12 : Group.term (View.ld x0 r0_38) (View.ld x1 r0_36) (View.ld x3 r0_37) (View.ld x2 r0_37) (ix2 p q)
      = ∑ k : Fin 256, QuantLinear.ext (QuantLinear.summand x0 x1 x2 x3 p q) (256 * 12 + k.val) :=
    group_eq x0 x1 x2 x3 12 (by decide) _ _ _ p q
  have h13 : Group.term (View.ld x0 r0_41) (View.ld x1 r0_39) (View.ld x3 r0_40) (View.ld x2 r0_40) (ix2 p q)
      = ∑ k : Fin 256, QuantLinear.ext (QuantLinear.summand x0 x1 x2 x3 p q) (256 * 13 + k.val) :=
    group_eq x0 x1 x2 x3 13 (by decide) _ _ _ p q
  have h14 : Group.term (View.ld x0 r0_44) (View.ld x1 r0_42) (View.ld x3 r0_43) (View.ld x2 r0_43) (ix2 p q)
      = ∑ k : Fin 256, QuantLinear.ext (QuantLinear.summand x0 x1 x2 x3 p q) (256 * 14 + k.val) :=
    group_eq x0 x1 x2 x3 14 (by decide) _ _ _ p q
  have h15 : Group.term (View.ld x0 r0_47) (View.ld x1 r0_45) (View.ld x3 r0_46) (View.ld x2 r0_46) (ix2 p q)
      = ∑ k : Fin 256, QuantLinear.ext (QuantLinear.summand x0 x1 x2 x3 p q) (256 * 15 + k.val) :=
    group_eq x0 x1 x2 x3 15 (by decide) _ _ _ p q
  have hb : broadcastTo S128x2048 (shapeCast S1x2048 (View.ld x4 r0_48) shapeCasts_S1x2048_S1x2048) broadcasts_S1x2048_S128x2048 (ix2 p q)
      = x4 (ix2 (0 : Fin 1) q) := by
    rw [broadcastTo_1b_ab_apply]
    exact (congrFun (shapeCast_self (s := S1x2048) (View.ld x4 r0_48) Facts₀.shapeCasts_S1x2048_S1x2048) _).trans
      (congrFun (View.ld_unit_zero (S := S1x2048) hz _ x4) _)
  rw [out_eq, QuantLinear.layer_apply, QuantLinear.sum_groups, ← QuantLinear.sum_sixteen]
  simp only [addf_apply]
  rw [h0, h1, h2, h3, h4, h5, h6, h7, h8, h9, h10, h11, h12, h13, h14, h15, hb, broadcast_apply]
  show (Ideal.ofBits .f32 0x00000000#32 + _ + _ + _ + _ + _ + _ + _ + _ + _ + _ + _ + _ + _ + _ + _ + _) + _ = _
  rw [Ideal.ofBits_zero_f32]

end Cert.KernelIdeal.Block

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.DenseSpec.lean ====
/-
  The quantized linear layer on the arrays as a caller hands them over.

  The inputs arrive as `x : [4, 2048, 4096]` (4 x 2048 rows of 4096 entries), the integer codes as `q : [4096, 4096]`
  (one row per output feature), the scales and zero points as columns `[65536, 1]` with one entry per group of 256
  consecutive codes in row-major order — so the group of code `(o, k)` sits at row `16 o + k / 256` —, and the bias as
  `[4096]`. The layer is

      dense (b, s, o) = (sum over k < 4096 of x (b, s, k) * ((q (o, k) - zeros (16 o + k / 256)) * scales (16 o + k / 256)))
                        + bias (o).

  A program may first flatten the inputs to 8192 rows, fold the two columns to `[4096, 16]` tables and make the bias a
  row `[1, 4096]`, apply the two-dimensional layer, and split the rows again: that is the same function, since a
  reshape only renames positions and a change of float format does nothing on the extended reals.
-/
import Idealize.ShloMosaic.PureOps.Ideal
import Idealize.ShloMosaic.Lib.ValueIdx
import Idealize.ShloMosaic.Lib.Pipeline.Value
import proofs.«124148_j47227460386887_1_alg».proof.Proof.QuantLinear
import proofs.«124148_j47227460386887_1_alg».proof.Proof.LibFlattenRows
import proofs.«124148_j47227460386887_1_alg».proof.Proof.LibRowVector

noncomputable section

namespace QuantLinear

open Idealize.ShloMosaic Idealize.ShloMosaic.ValueIdx

/-- Where the scale and the zero point of code `(o, k)` sit in their columns: 16 groups to a row of codes. -/
def groupRow (o k : Fin 4096) : Fin 65536 := ⟨16 * o.val + k.val / 256, by have := o.isLt; have := k.isLt; omega⟩

/-- The layer on the arrays as handed over. -/
def dense (x : (⟨3, ![4, 2048, 4096]⟩ : Shape).Idx → EReal) (q : (⟨2, ![4096, 4096]⟩ : Shape).Idx → BitVec 32)
    (sc ze : (⟨2, ![65536, 1]⟩ : Shape).Idx → EReal) (bias : (⟨1, ![4096]⟩ : Shape).Idx → EReal) :
    (⟨3, ![4, 2048, 4096]⟩ : Shape).Idx → EReal :=
  fun i => (∑ k : Fin 4096, x (ix3 (i 0) (i 1) k)
      * weight (q (ix2 (i 2) k)) (ze (ix2 (groupRow (i 2) k) (0 : Fin 1))) (sc (ix2 (groupRow (i 2) k) (0 : Fin 1))))
    + bias (ix1 (i 2))

theorem dense_apply (x : (⟨3, ![4, 2048, 4096]⟩ : Shape).Idx → EReal) (q : (⟨2, ![4096, 4096]⟩ : Shape).Idx → BitVec 32)
    (sc ze : (⟨2, ![65536, 1]⟩ : Shape).Idx → EReal) (bias : (⟨1, ![4096]⟩ : Shape).Idx → EReal)
    (b : Fin 4) (s : Fin 2048) (o : Fin 4096) :
    dense x q sc ze bias (ix3 b s o) = (∑ k : Fin 4096, x (ix3 b s k)
      * weight (q (ix2 o k)) (ze (ix2 (groupRow o k) (0 : Fin 1))) (sc (ix2 (groupRow o k) (0 : Fin 1))))
    + bias (ix1 o) := rfl

/-- A column `[65536, 1]` folded to a table `[4096, 16]` reads, at `(o, g)`, the column's row `16 o + g`. -/
theorem fold_apply (v : (⟨2, ![65536, 1]⟩ : Shape).Idx → EReal)
    (h : (⟨2, ![65536, 1]⟩ : Shape).ShapeCasts ⟨2, ![4096, 16]⟩) (o k : Fin 4096) :
    shapeCast ⟨2, ![4096, 16]⟩ v h (ix2 o (grp k)) = v (ix2 (groupRow o k) (0 : Fin 1)) :=
  shapeCast_apply v h _ _ (by
    rw [Shape.rowMajor_val_two, Shape.rowMajor_val_two]
    show (16 * o.val + k.val / 256) * 1 + 0 = o.val * 16 + k.val / 256
    omega)

/-- Flatten the rows, fold the columns, make the bias a row, apply the two-dimensional layer and split the rows
    again: the layer on the arrays as handed over. -/
theorem layer_reshaped (x : (⟨3, ![4, 2048, 4096]⟩ : Shape).Idx → EReal) (q : (⟨2, ![4096, 4096]⟩ : Shape).Idx → BitVec 32)
    (sc ze : (⟨2, ![65536, 1]⟩ : Shape).Idx → EReal) (bias : (⟨1, ![4096]⟩ : Shape).Idx → EReal)
    (h1 : (⟨3, ![4, 2048, 4096]⟩ : Shape).ShapeCasts ⟨2, ![8192, 4096]⟩)
    (h2 : (⟨2, ![65536, 1]⟩ : Shape).ShapeCasts ⟨2, ![4096, 16]⟩)
    (h3 : (⟨1, ![4096]⟩ : Shape).ShapeCasts ⟨2, ![1, 4096]⟩)
    (h4 : (⟨2, ![8192, 4096]⟩ : Shape).ShapeCasts ⟨3, ![4, 2048, 4096]⟩) :
    shapeCast ⟨3, ![4, 2048, 4096]⟩
        (layer (shapeCast ⟨2, ![8192, 4096]⟩ x h1) q (shapeCast ⟨2, ![4096, 16]⟩ sc h2) (shapeCast ⟨2, ![4096, 16]⟩ ze h2)
          (shapeCast ⟨2, ![1, 4096]⟩ bias h3)) h4
      = dense x q sc ze bias := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [Cert.FlattenRows.unflatten_apply _ h4 b s o ⟨b.val * 2048 + s.val, hr⟩ rfl, layer_apply, dense_apply,
    RowVector.shapeCast_n_1n_apply bias h3 (0 : Fin 1) o]
  refine congrArg (· + bias (ix1 o)) (Finset.sum_congr rfl fun k _ => ?_)
  unfold summand
  rw [Cert.FlattenRows.flatten_apply x h1 b s k ⟨b.val * 2048 + s.val, hr⟩ rfl, fold_apply, fold_apply]

end QuantLinear

end
-- ==== Proof.KernelArray.lean ====
/-
  The kernel's output array, and the program's result.

  The grid has 2 x 64 points. At point (n, m) the pipeline hands the body rows 128 m, ..., 128 m + 127 of the flattened
  inputs, rows 2048 n, ..., 2048 n + 2047 of the codes, of the scale table and of the zero-point table, and entries
  2048 n, ..., 2048 n + 2047 of the bias row, and writes back the body's block at rows 128 m ... and columns 2048 n ... of
  the output. The quantized layer is row-local, so the block the body stores is that block of the layer of the whole
  arrays; the 128 blocks tile the output, so the output array ends holding the layer. The host then only splits the
  8192 rows into 4 x 2048 again. Before the call the host flattened the inputs (and changed their float format, which
  does nothing here), folded the scale and zero-point columns to tables and made the bias a row.
-/
import proofs.«124148_j47227460386887_1_alg».proof.Proof.Gen.KernelIdeal.Frame
import proofs.«124148_j47227460386887_1_alg».proof.Proof.BlockValue
import proofs.«124148_j47227460386887_1_alg».proof.Proof.DenseSpec
import Idealize.ShloMosaic.Lib.Pipeline.Value
import Idealize.ShloMosaic.Lib.StableHlo.Run

set_option maxRecDepth 16384

noncomputable section

namespace Cert.KernelIdeal.Array

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- The printed index maps over the grid: the inputs' blocks follow the output block's row index, the weights',
    scales', zero points' and biases' blocks its column index, and both stay in range. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 63 ∧ win0_5.index t (1 : Fin 2) ≤ 1 :=
  (by decide +kernel : ∀ t : Fin grid0.N, _)

/-- Every block of the output is some point's. -/
theorem idx_onto : ∀ (q0 : Fin 64) (q1 : Fin 2), ∃ t : Fin cfg0.N, win0_5.index t = ![q0.val, q1.val] :=
  (by decide +kernel : ∀ (q0 : Fin 64) (q1 : Fin 2), ∃ t : Fin grid0.N, win0_5.index t = ![q0.val, q1.val])

/-- The layer of the arrays as the region finds them. -/
abbrev G (c : Dev nD) : S8192x4096.Idx → EReal :=
  QuantLinear.layer (V m c main_v1) (V m c main_arg1) (V m c main_v2) (V m c main_v3) (V m c main_v4)

/-- WHAT POINT `t` WRITES BACK is block `t` of the layer of the whole arrays. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨e00, e01, e10, e11, e20, e21, e30, e31, e40, e41, b0, b1⟩ := idx_facts t
  funext j
  obtain ⟨p, q, rfl⟩ : ∃ (p : Fin 128) (q : Fin 2048), j = ix2 p q := ⟨j 0, j 1, eq_ix2 j⟩
  have hr : win0_5.index t (0 : Fin 2) * 128 + p.val < 8192 := by have := p.isLt; omega
  have ho : win0_5.index t (1 : Fin 2) * 2048 + q.val < 4096 := by have := q.isLt; omega
  have hemb : ((cfg0.win 5).blk t).view.emb (ix2 p q)
      = ix2 (⟨win0_5.index t (0 : Fin 2) * 128 + p.val, hr⟩ : Fin 8192) (⟨win0_5.index t (1 : Fin 2) * 2048 + q.val, ho⟩ : Fin 4096) :=
    funext fun a => Fin.ext (by
      match a with
      | ⟨0, _⟩ => show win0_5.index t (0 : Fin 2) * 128 + 1 * p.val = _; show _ = win0_5.index t (0 : Fin 2) * 128 + p.val; omega
      | ⟨1, _⟩ => show win0_5.index t (1 : Fin 2) * 2048 + 1 * q.val = _; show _ = win0_5.index t (1 : Fin 2) * 2048 + q.val; omega)
  show out0_5 (iblk m c 0 t) (iblk m c 1 t) (iblk m c 2 t) (iblk m c 3 t) (iblk m c 4 t) (ix2 p q)
    = G m c (((cfg0.win 5).blk t).view.emb (ix2 p q))
  rw [hemb]
  refine (Block.out_apply _ _ _ _ _ p q).trans ?_
  refine QuantLinear.layer_rows _ _ _ _ _ _ _ _ _ _ p q _ _ ?_ ?_ ?_ ?_ ?_
  · intro k
    show V m c main_v1 (((cfg0.win 0).blk t).view.emb (ix2 p k)) = V m c main_v1 _
    refine congrArg _ (funext fun a => Fin.ext ?_)
    match a with
    | ⟨0, _⟩ => show win0_0.index t (0 : Fin 2) * 128 + 1 * p.val = win0_5.index t (0 : Fin 2) * 128 + p.val; omega
    | ⟨1, _⟩ => show win0_0.index t (1 : Fin 2) * 4096 + 1 * k.val = k.val; omega
  · intro k
    show V m c main_arg1 (((cfg0.win 1).blk t).view.emb (ix2 q k)) = V m c main_arg1 _
    refine congrArg _ (funext fun a => Fin.ext ?_)
    match a with
    | ⟨0, _⟩ => show win0_1.index t (0 : Fin 2) * 2048 + 1 * q.val = win0_5.index t (1 : Fin 2) * 2048 + q.val; omega
    | ⟨1, _⟩ => show win0_1.index t (1 : Fin 2) * 4096 + 1 * k.val = k.val; omega
  · intro g
    show V m c main_v2 (((cfg0.win 2).blk t).view.emb (ix2 q g)) = V m c main_v2 _
    refine congrArg _ (funext fun a => Fin.ext ?_)
    match a with
    | ⟨0, _⟩ => show win0_2.index t (0 : Fin 2) * 2048 + 1 * q.val = win0_5.index t (1 : Fin 2) * 2048 + q.val; omega
    | ⟨1, _⟩ => show win0_2.index t (1 : Fin 2) * 16 + 1 * g.val = g.val; omega
  · intro g
    show V m c main_v3 (((cfg0.win 3).blk t).view.emb (ix2 q g)) = V m c main_v3 _
    refine congrArg _ (funext fun a => Fin.ext ?_)
    match a with
    | ⟨0, _⟩ => show win0_3.index t (0 : Fin 2) * 2048 + 1 * q.val = win0_5.index t (1 : Fin 2) * 2048 + q.val; omega
    | ⟨1, _⟩ => show win0_3.index t (1 : Fin 2) * 16 + 1 * g.val = g.val; omega
  · show V m c main_v4 (((cfg0.win 4).blk t).view.emb (ix2 (0 : Fin 1) q)) = V m c main_v4 _
    refine congrArg _ (funext fun a => Fin.ext ?_)
    match a with
    | ⟨0, _⟩ => show win0_4.index t (0 : Fin 2) * 1 + 1 * 0 = 0; omega
    | ⟨1, _⟩ => show win0_4.index t (1 : Fin 2) * 2048 + 1 * q.val = win0_5.index t (1 : Fin 2) * 2048 + q.val; omega

/-- An index of the output is in point `t`'s block iff each coordinate is in the block's range on its axis. -/
theorem mem_blk (t : Fin cfg0.N) (i : S8192x4096.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v5).slice (win0_5.rect t)).set ↔ _
  rw [View.set_slice_whole, Rect.mem_set_unit]
  exact Iff.rfl

/-- The 128 blocks tile the output: entry `(r, o)` is in the block of the point with row index `r / 128` and column
    index `o / 2048`. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 128, by omega⟩ ⟨(i 1).val / 2048, by omega⟩
  have q0 : win0_5.index t (0 : Fin 2) = (i 0).val / 128 := congrFun ht 0
  have q1 : win0_5.index t (1 : Fin 2) = (i 1).val / 2048 := congrFun ht 1
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- THE OUTPUT ARRAY after the run is the layer of the arrays as the region finds them. -/
theorem final (c : Dev nD) : (dats m 0 c).arrAt 5 cfg0.N = G m c :=
  (dats m 0 c).arrAt_eq_of_cover 5 (G m c) (fun t _ => flushed_eq m c t) (cover)

end Cert.KernelIdeal.Array

end
-- ==== Proof.KernelRun.lean ====
/-
  The kernel program's run and its result.

  Before the call the host flattens the inputs `[4, 2048, 4096]` to `[8192, 4096]` and changes their float format (on the
  extended reals: nothing), folds the scale and zero-point columns `[65536, 1]` to tables `[4096, 16]` and makes the bias
  `[4096]` a row `[1, 4096]`; the codes go in as they are. The call leaves the two-dimensional quantized layer of those
  arrays in its output, and the one host line after it splits the 8192 rows into `4 x 2048`. That composition is the
  layer on the arrays as handed over.
-/
import proofs.«124148_j47227460386887_1_alg».proof.Proof.Gen.KernelIdeal.Frame
import proofs.«124148_j47227460386887_1_alg».proof.Proof.KernelArray
import proofs.«124148_j47227460386887_1_alg».proof.Proof.DenseSpec
import Idealize.ShloMosaic.Lib.Pipeline.Value
import Idealize.ShloMosaic.Lib.StableHlo.Run

set_option maxRecDepth 16384

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

/-- The inputs as the region finds them: flattened to 8192 rows (and in the other float format). -/
theorem V_inputs (c : Dev nD) : (V m c main_v1 : S8192x4096.Idx → EReal)
    = shapeCast S8192x4096 (m ((c : Thread nD τ).loc main_arg0)) Facts₀.shapeCasts_S4x2048x4096_S8192x4096 := by
  show StableHlo.after hostOps0 (fun b => m (c, b)) (Proc.devRef .tc main_v1) = _
  after_results
  rfl

/-- The scales as the region finds them: folded to a `[4096, 16]` table. -/
theorem V_scales (c : Dev nD) : (V m c main_v2 : S4096x16.Idx → EReal)
    = shapeCast S4096x16 (m ((c : Thread nD τ).loc main_arg2)) Facts₀.shapeCasts_S65536x1_S4096x16 := by
  show StableHlo.after hostOps0 (fun b => m (c, b)) (Proc.devRef .tc main_v2) = _
  after_results
  rfl

/-- The zero points as the region finds them: folded to a `[4096, 16]` table. -/
theorem V_zeros (c : Dev nD) : (V m c main_v3 : S4096x16.Idx → EReal)
    = shapeCast S4096x16 (m ((c : Thread nD τ).loc main_arg3)) Facts₀.shapeCasts_S65536x1_S4096x16 := by
  show StableHlo.after hostOps0 (fun b => m (c, b)) (Proc.devRef .tc main_v3) = _
  after_results
  rfl

/-- The bias as the region finds it: a row `[1, 4096]`. -/
theorem V_bias (c : Dev nD) : (V m c main_v4 : S1x4096.Idx → EReal)
    = shapeCast S1x4096 (m ((c : Thread nD τ).loc main_arg4)) Facts₀.shapeCasts_S4096_S1x4096 := by
  show StableHlo.after hostOps0 (fun b => m (c, b)) (Proc.devRef .tc main_v4) = _
  after_results
  rfl

/-- The program's result after the host line that follows the call: the call's output array with its rows split. -/
theorem tail_eq (c : Dev nD) :
    Pipeline.afterTail₀ cfgs (dats m) 0 (V0 m) [hostOps1] c main_v6
      = shapeCast S4x2048x4096 (Array.G m c) Facts₀.shapeCasts_S8192x4096_S4x2048x4096 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = Array.G m c :=
    (Pipeline.withArrays_arr spec0 launch0.win.arr_inj c _ _ 5).trans (Array.final m c)
  rw [hw]
  rfl

/-- Flattening, folding, the two-dimensional layer and the split of the rows compose to the layer on the arrays as
    handed over. -/
theorem result_eq (c : Dev nD) :
    shapeCast S4x2048x4096 (Array.G m c) Facts₀.shapeCasts_S8192x4096_S4x2048x4096
      = QuantLinear.dense (m ((c : Thread nD τ).loc main_arg0)) (m ((c : Thread nD τ).loc main_arg1))
          (m ((c : Thread nD τ).loc main_arg2)) (m ((c : Thread nD τ).loc main_arg3)) (m ((c : Thread nD τ).loc main_arg4)) := by
  show shapeCast S4x2048x4096
      (QuantLinear.layer (V m c main_v1) (V m c main_arg1) (V m c main_v2) (V m c main_v3) (V m c main_v4))
      Facts₀.shapeCasts_S8192x4096_S4x2048x4096 = _
  rw [V_inputs, V_main_arg1, V_scales, V_zeros, V_bias]
  exact QuantLinear.layer_reshaped _ _ _ _ _ _ _ _ _

/-- THE RUN: every weakly fair execution of the kernel program terminates, without a fault, with its result at the
    layer of its argument arrays and the argument arrays unchanged. -/
theorem run : θ_run defs (onTc (τ := τ) (main (F := Ideal))) ⟨m, fun _ => 0, ρ⟩ (fun r => ∀ c : Dev nD,
      r.2.mem ((c.tc : Thread nD τ).loc main_v6)
        = QuantLinear.dense (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.ReferenceValue.lean ====
/-
  The reference program computes the quantized linear layer.

  The reference turns the codes into numbers, regroups them as 65536 rows of 256, subtracts each row's zero point and
  multiplies by each row's scale (both broadcast along the 256 columns), regroups the result as a 4096 x 4096 weight
  matrix, contracts the inputs' last axis with the weights' last axis, and adds the bias broadcast over the rows.
  Entry `(o, k)` of the weight matrix is at row-major position `4096 o + k`, that is row `(4096 o + k) / 256 =
  16 o + k / 256` of the regrouped codes, and that row's position `(4096 o + k) % 256` maps back to the code `(o, k)`.
  So the reference's result is the layer on the arrays as handed over, index by index.
-/
import proofs.«124148_j47227460386887_1_alg».proof.Proof.Gen.ReferenceIdeal.Read
import proofs.«124148_j47227460386887_1_alg».proof.Proof.DenseSpec

noncomputable section

namespace Cert.ReferenceIdeal.Dense

open Idealize.ShloMosaic Idealize.ShloMosaic.ValueIdx Cert.ReferenceIdeal Cert.ReferenceIdeal.Read

/-- The inputs' index at output entry `(b, s, o)` and contraction position `k` is `(b, s, k)`. -/
theorem lidx_eq (b : Fin 4) (s : Fin 2048) (o k : Fin 4096) : lidx_main_v7 (ix3 b s o) k = ix3 b s k :=
  funext fun a => by match a with | ⟨0, _⟩ => rfl | ⟨1, _⟩ => rfl | ⟨2, _⟩ => rfl

/-- The code behind weight `(o, k)`: regrouping to rows of 256 and back is the identity on positions. -/
theorem code_idx_eq (b : Fin 4) (s : Fin 2048) (o k : Fin 4096) :
    idx_main_v1 (idx_main_v6 (ridx_main_v7 (ix3 b s o) k)) = ix2 o k :=
  funext fun a => Fin.ext (by
    have := o.isLt; have := k.isLt
    match a with
    | ⟨0, _⟩ => show ((o.val * 4096 + k.val) / 256 * 256 + (o.val * 4096 + k.val) % 256) / 4096 = o.val; omega
    | ⟨1, _⟩ => show ((o.val * 4096 + k.val) / 256 * 256 + (o.val * 4096 + k.val) % 256) % 4096 = k.val; omega)

/-- The zero point of weight `(o, k)` is read at row `16 o + k / 256` of its column. -/
theorem zero_idx_eq (b : Fin 4) (s : Fin 2048) (o k : Fin 4096) :
    idx_main_v2 (idx_main_v6 (ridx_main_v7 (ix3 b s o) k)) = ix2 (QuantLinear.groupRow o k) (0 : Fin 1) :=
  funext fun a => Fin.ext (by
    have := o.isLt; have := k.isLt
    match a with
    | ⟨0, _⟩ => show (o.val * 4096 + k.val) / 256 = 16 * o.val + k.val / 256; omega
    | ⟨1, _⟩ => rfl)

/-- So is its scale. -/
theorem scale_idx_eq (b : Fin 4) (s : Fin 2048) (o k : Fin 4096) :
    idx_main_v4 (idx_main_v6 (ridx_main_v7 (ix3 b s o) k)) = ix2 (QuantLinear.groupRow o k) (0 : Fin 1) :=
  zero_idx_eq b s o k

/-- The bias at output entry `(b, s, o)` is the bias of feature `o`. -/
theorem bias_idx_eq (b : Fin 4) (s : Fin 2048) (o : Fin 4096) : idx_main_v8 (idx_main_v9 (ix3 b s o)) = ix1 o :=
  funext fun a => by match a with | ⟨0, _⟩ => rfl

/-- THE REFERENCE'S RESULT, as the generated reading of its run names it, is the layer on the arrays as handed over. -/
theorem result_eq (x0 : (⟨S4x2048x4096, .f32⟩ : BufTy).Contents (Elt Ideal)) (x1 : (⟨S4096x4096, .i32⟩ : BufTy).Contents (Elt Ideal))
    (x2 x3 : (⟨S65536x1, .f32⟩ : BufTy).Contents (Elt Ideal)) (x4 : (⟨S4096, .f32⟩ : BufTy).Contents (Elt Ideal)) :
    val_main_v10 (F := Ideal) x0 x1 x2 x3 x4 = QuantLinear.dense x0 x1 x2 x3 x4 := by
  funext i
  obtain ⟨b, s, o, rfl⟩ : ∃ (b : Fin 4) (s : Fin 2048) (o : Fin 4096), i = ix3 b s o := ⟨i 0, i 1, i 2, eq_ix3 i⟩
  rw [val_main_v10_apply, val_main_v7_apply, val_main_v9_apply, val_main_v8_apply, bias_idx_eq, QuantLinear.dense_apply]
  refine congrArg (· + x4 (ix1 o)) (Finset.sum_congr rfl fun k _ => ?_)
  rw [val_main_v6_apply, val_main_v5_apply, val_main_v3_apply, val_main_v4_apply, val_main_v2_apply, val_main_v1_apply,
    val_main_v0_apply, lidx_eq, code_idx_eq, zero_idx_eq, scale_idx_eq]
  rfl

end Cert.ReferenceIdeal.Dense

end
-- ==== Proof.lean ====
/-
  A linear layer over group-wise quantized weights: the kernel against its reference, on the extended reals.

  Both programs compute, from inputs x : [4, 2048, 4096], integer codes q : [4096, 4096], scales and zero points given
  as columns [65536, 1] (one entry per group of 256 consecutive codes, row-major) and a bias [4096],

      out (b, s, o) = (sum over k < 4096 of x (b, s, k) * ((q (o, k) - zeros (16 o + k / 256)) * scales (16 o + k / 256)))
                      + bias (o).

  The reference regroups the codes as 65536 rows of 256, dequantizes them with the two columns broadcast along the
  rows, regroups them as the weight matrix and contracts it with the inputs in one product. The kernel flattens the
  inputs to 8192 rows, folds the two columns to [4096, 16] tables, and on a 2 x 64 grid computes a 128 x 2048 block of
  the output at a time: for each of the 16 groups it dequantizes a band of 256 columns of 2048 weight rows, multiplies
  the matching band of 128 input rows by its transpose and adds the product onto an accumulator started at zero;
  last it adds the bias row. The host then splits the rows again.

  On the extended reals a change of float format does nothing and an integer code is its exact value, so each of the
  kernel's sixteen products is the exact sum of its 256 terms, and the sixteen partial sums added onto zero are the
  one sum over all 4096 columns because addition of extended reals is associative and commutative with neutral
  element zero — no entry has to be finite. The layer is row-local, so the 128 blocks are the blocks of one function
  of the whole arrays, and they tile the output. The reshapes on both sides only rename positions.

  The three frames are the generated ones (the reference's is its generated run with the result dropped); the
  idealization rewrote nothing, so there is nothing to preserve.
-/
import proofs.«124148_j47227460386887_1_alg».proof.Defs
import proofs.«124148_j47227460386887_1_alg».proof.Proof.Gen.Kernel
import proofs.«124148_j47227460386887_1_alg».proof.Proof.Gen.Kernel.Skeleton
import proofs.«124148_j47227460386887_1_alg».proof.Proof.Gen.Kernel.Launch
import proofs.«124148_j47227460386887_1_alg».proof.Proof.Gen.Kernel.Points
import proofs.«124148_j47227460386887_1_alg».proof.Proof.Gen.Kernel.Frame
import proofs.«124148_j47227460386887_1_alg».proof.Proof.Gen.KernelIdeal
import proofs.«124148_j47227460386887_1_alg».proof.Proof.Gen.KernelIdeal.Skeleton
import proofs.«124148_j47227460386887_1_alg».proof.Proof.Gen.KernelIdeal.Launch
import proofs.«124148_j47227460386887_1_alg».proof.Proof.Gen.KernelIdeal.Points
import proofs.«124148_j47227460386887_1_alg».proof.Proof.Gen.KernelIdeal.Frame
import proofs.«124148_j47227460386887_1_alg».proof.Proof.Gen.ReferenceIdeal
import proofs.«124148_j47227460386887_1_alg».proof.Proof.Gen.ReferenceIdeal.Run
import proofs.«124148_j47227460386887_1_alg».proof.Proof.Gen.ReferenceIdeal.Read
import proofs.«124148_j47227460386887_1_alg».proof.Proof.Gen.Pre_finite_inputs
import proofs.«124148_j47227460386887_1_alg».proof.Proof.KernelRun
import proofs.«124148_j47227460386887_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both programs end with their result at the quantized layer of the
    argument arrays: the kernel's by its run read block by block, the reference's by its run read index by index. -/
theorem algebraic : Cert.algebraic_KernelIdeal_ReferenceIdeal := by
  intro m ρ m' ρ' _ hagree
  refine ⟨fun c => QuantLinear.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Dense.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
